-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x768 : Shape := ⟨3, ![4, 256, 768]⟩
abbrev S64x768 : Shape := ⟨2, ![64, 768]⟩
abbrev S64 : Shape := ⟨1, ![64]⟩
abbrev S_ : Shape := ⟨0, ![]⟩

class Facts : Prop where
  bcast_S_S4x256x768 : S_.BroadcastsInDim S4x256x768 (![] : Fin 0 → Fin S4x256x768.rank)
  reducesTo_S4x256x768_S_d0_1_2 : S4x256x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x256x768 .f32) (main_arg1 : FVec F S64x768 .f32) (main_arg2 : FVec F S64 .f32) : IVec S_ 1 :=
  let main_v0 : FVec F S4x256x768 .f32 := Host.absf main_arg0
  let main_cst : FVec F S_ .f32 := constant S_ .f32 0x7F800000#32
  let main_v1 : FVec F S4x256x768 .f32 := broadcastInDim S4x256x768 ![] bcast_S_S4x256x768 main_cst
  let main_v2 : IVec S4x256x768 1 := cmpf .olt main_v0 main_v1
  let main_c : IVec S_ 1 := constantI S_ 1 1#1
  let main_v3 : IVec S_ 1 := (fun x v => Host.reduce IntOp.andi x v reducesTo_S4x256x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x256x768 : Shape := ⟨3, ![4, 256, 768]⟩
abbrev S64x768 : Shape := ⟨2, ![64, 768]⟩
abbrev S64 : Shape := ⟨1, ![64]⟩
abbrev S768x64 : Shape := ⟨2, ![768, 64]⟩
abbrev S1x64 : Shape := ⟨2, ![1, 64]⟩
abbrev S4x256x16384 : Shape := ⟨3, ![4, 256, 16384]⟩
abbrev S1x128x768 : Shape := ⟨3, ![1, 128, 768]⟩
abbrev S1x256x768 : Shape := ⟨3, ![1, 256, 768]⟩
abbrev S1x128x16384 : Shape := ⟨3, ![1, 128, 16384]⟩
abbrev S128x768 : Shape := ⟨2, ![128, 768]⟩
abbrev S256x768 : Shape := ⟨2, ![256, 768]⟩
abbrev S128x64 : Shape := ⟨2, ![128, 64]⟩
abbrev S256x64 : Shape := ⟨2, ![256, 64]⟩
abbrev S128x1x64 : Shape := ⟨3, ![128, 1, 64]⟩
abbrev S1x256x64 : Shape := ⟨3, ![1, 256, 64]⟩
abbrev S128x256x64 : Shape := ⟨3, ![128, 256, 64]⟩
abbrev S1x1x64 : Shape := ⟨3, ![1, 1, 64]⟩
abbrev S128x16384 : Shape := ⟨2, ![128, 16384]⟩
abbrev S4x256x256x64 : Shape := ⟨4, ![4, 256, 256, 64]⟩

abbrev nBuf : Space → Nat
  | .hbm => 7
  | .vmem => 8
  | .smem => 0
  | _ => 0

abbrev bufTy : (tb : Table) → Fin (tcTables nBuf tb) → BufTy
  | .hbm, ⟨0, _⟩ => ⟨S4x256x768, .f32⟩
  | .hbm, ⟨1, _⟩ => ⟨S64x768, .f32⟩
  | .hbm, ⟨2, _⟩ => ⟨S64, .f32⟩
  | .hbm, ⟨3, _⟩ => ⟨S768x64, .f32⟩
  | .hbm, ⟨4, _⟩ => ⟨S1x64, .f32⟩
  | .hbm, ⟨5, _⟩ => ⟨S4x256x16384, .f32⟩
  | .hbm, ⟨6, _⟩ => ⟨S4x256x256x64, .f32⟩
  | .local _ .vmem, ⟨0, _⟩ => ⟨S1x128x768, .f32⟩
  | .local _ .vmem, ⟨1, _⟩ => ⟨S1x128x768, .f32⟩
  | .local _ .vmem, ⟨2, _⟩ => ⟨S1x256x768, .f32⟩
  | .local _ .vmem, ⟨3, _⟩ => ⟨S1x256x768, .f32⟩
  | .local _ .vmem, ⟨4, _⟩ => ⟨S768x64, .f32⟩
  | .local _ .vmem, ⟨5, _⟩ => ⟨S1x64, .f32⟩
  | .local _ .vmem, ⟨6, _⟩ => ⟨S1x128x16384, .f32⟩
  | .local _ .vmem, ⟨7, _⟩ => ⟨S1x128x16384, .f32⟩
  | _, _ => ⟨S4x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S64x768_S768x64_1_0 : S64x768.Transposes [1, 0] S768x64
  shapeCasts_S64_S1x64 : S64.ShapeCasts S1x64
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S128x64_S128x1x64 : S128x64.ShapeCasts S128x1x64
  shapeCasts_S256x64_S1x256x64 : S256x64.ShapeCasts S1x256x64
  broadcasts_S128x1x64_S128x256x64 : S128x1x64.Broadcasts S128x256x64
  broadcasts_S1x256x64_S128x256x64 : S1x256x64.Broadcasts S128x256x64
  shapeCasts_S1x64_S1x1x64 : S1x64.ShapeCasts S1x1x64
  broadcasts_S1x1x64_S128x256x64 : S1x1x64.Broadcasts S128x256x64
  shapeCasts_S128x256x64_S128x16384 : S128x256x64.ShapeCasts S128x16384
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  shapeCasts_S128x16384_S1x128x16384 : S128x16384.ShapeCasts S1x128x16384
  shapeCasts_S4x256x16384_S4x256x256x64 : S4x256x16384.ShapeCasts S4x256x256x64
  dot_S128x768_S768x64_S128x64_1_0_0_1_n_n_wf : DotDims.WF S128x768 S768x64 S128x64 [1] [0] [0] [1] [] []
  dot_S256x768_S768x64_S256x64_1_0_0_1_n_n_wf : DotDims.WF S256x768 S768x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S4x256x768.size a
  hwx0_0 : ∀ i : grid0.Coords, EltTy.bits .f32 = 32 ∨ (Rect.block (s := S4x256x768) S1x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S4x256x768.size a
  hwx0_1 : ∀ i : grid0.Coords, EltTy.bits .f32 = 32 ∨ (Rect.block (s := S4x256x768) S1x256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .f32 = 32 ∨ (Rect.block (s := S768x64) S768x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x16384.size a ≤ S4x256x16384.size a
  hwx0_4 : ∀ i : grid0.Coords, EltTy.bits .f32 = 32 ∨ (Rect.block (s := S4x256x16384) S1x128x16384.size (cc0_transform_4 i) (hinb0_4 i)).WholeWords (EltTy.packing .f32)

variable [Facts₀]

def dot_S128x768_S768x64_S128x64_1_0_0_1_n_n : DotDims S128x768 S768x64 S128x64 where
  lhsContracting := [1]
  rhsContracting := [0]
  lhsNonContracting := [0]
  rhsNonContracting := [1]
  lhsBatch := []
  rhsBatch := []
  wf := dot_S128x768_S768x64_S128x64_1_0_0_1_n_n_wf
def dot_S256x768_S768x64_S256x64_1_0_0_1_n_n : DotDims S256x768 S768x64 S256x64 where
  lhsContracting := [1]
  rhsContracting := [0]
  lhsNonContracting := [0]
  rhsNonContracting := [1]
  lhsBatch := []
  rhsBatch := []
  wf := dot_S256x768_S768x64_S256x64_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x768 : Shape := ⟨3, ![4, 256, 768]⟩
abbrev S64x768 : Shape := ⟨2, ![64, 768]⟩
abbrev S64 : Shape := ⟨1, ![64]⟩
abbrev S4x256x1x768 : Shape := ⟨4, ![4, 256, 1, 768]⟩
abbrev S4x1x256x768 : Shape := ⟨4, ![4, 1, 256, 768]⟩
abbrev S4x256x256x768 : Shape := ⟨4, ![4, 256, 256, 768]⟩
abbrev S4x256x256x64 : Shape := ⟨4, ![4, 256, 256, 64]⟩
abbrev S1x1x1x64 : Shape := ⟨4, ![1, 1, 1, 64]⟩

abbrev nBuf : Space → Nat
  | .hbm => 12
  | .vmem => 0
  | .smem => 0
  | _ => 0

abbrev bufTy : (tb : Table) → Fin (tcTables nBuf tb) → BufTy
  | .hbm, ⟨0, _⟩ => ⟨S4x256x768, .f32⟩
  | .hbm, ⟨1, _⟩ => ⟨S64x768, .f32⟩
  | .hbm, ⟨2, _⟩ => ⟨S64, .f32⟩
  | .hbm, ⟨3, _⟩ => ⟨S4x256x1x768, .f32⟩
  | .hbm, ⟨4, _⟩ => ⟨S4x1x256x768, .f32⟩
  | .hbm, ⟨5, _⟩ => ⟨S4x256x256x768, .f32⟩
  | .hbm, ⟨6, _⟩ => ⟨S4x256x256x768, .f32⟩
  | .hbm, ⟨7, _⟩ => ⟨S4x256x256x768, .f32⟩
  | .hbm, ⟨8, _⟩ => ⟨S4x256x256x64, .f32⟩
  | .hbm, ⟨9, _⟩ => ⟨S1x1x1x64, .f32⟩
  | .hbm, ⟨10, _⟩ => ⟨S4x256x256x64, .f32⟩
  | .hbm, ⟨11, _⟩ => ⟨S4x256x256x64, .f32⟩
  | _, _ => ⟨S4x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S4x256x768_S4x256x1x768_0_1_3 : S4x256x768.BroadcastsInDim S4x256x1x768 (![0, 1, 3] : Fin 3 → Fin S4x256x1x768.rank)
  bcast_S4x256x768_S4x1x256x768_0_2_3 : S4x256x768.BroadcastsInDim S4x1x256x768 (![0, 2, 3] : Fin 3 → Fin S4x1x256x768.rank)
  bcast_S4x256x1x768_S4x256x256x768_0_1_2_3 : S4x256x1x768.BroadcastsInDim S4x256x256x768 (![0, 1, 2, 3] : Fin 4 → Fin S4x256x256x768.rank)
  bcast_S4x1x256x768_S4x256x256x768_0_1_2_3 : S4x1x256x768.BroadcastsInDim S4x256x256x768 (![0, 1, 2, 3] : Fin 4 → Fin S4x256x256x768.rank)
  bcast_S64_S1x1x1x64_3 : S64.BroadcastsInDim S1x1x1x64 (![3] : Fin 1 → Fin S1x1x1x64.rank)
  bcast_S1x1x1x64_S4x256x256x64_0_1_2_3 : S1x1x1x64.BroadcastsInDim S4x256x256x64 (![0, 1, 2, 3] : Fin 4 → Fin S4x256x256x64.rank)
  dot_S4x256x256x768_S64x768_S4x256x256x64_3_1_012_0_n_n_wf : DotDims.WF S4x256x256x768 S64x768 S4x256x256x64 [3] [1] [0, 1, 2] [0] [] []

variable [Facts₀]

def dot_S4x256x256x768_S64x768_S4x256x256x64_3_1_012_0_n_n : DotDims S4x256x256x768 S64x768 S4x256x256x64 where
  lhsContracting := [3]
  rhsContracting := [1]
  lhsNonContracting := [0, 1, 2]
  rhsNonContracting := [0]
  lhsBatch := []
  rhsBatch := []
  wf := dot_S4x256x256x768_S64x768_S4x256x256x64_3_1_012_0_n_n_wf

class Facts : Prop extends Facts₀ where

variable [Facts]
-- ==== Proof.BitsBody.lean ====
/-
  The kernel body's run at one grid point, for any float values.

  One grid point (n, h) of the 4 x 2 grid handles batch n and the 128 query rows 128 h .. 128 h + 127. The body loads
  four input blocks — the 128 query rows of x[n], all 256 rows of x[n], the whole 768 x 64 transposed weight, the
  1 x 64 bias — and writes ONE output block of 128 x 16384 words, whole, through a single rectangle that is the whole
  staging buffer. (It also loads the output buffer before the store; nothing depends on what that load reads.)
  So after the body the output's staging buffer holds exactly the stored value, a pure function of the four loaded
  blocks; the input buffers are left as they were.
-/
import proofs.«135329_j43379169690302_2_alg».proof.Proof.Gen.Kernel.Launch
import proofs.«135329_j43379169690302_2_alg».proof.Proof.Gen.Kernel.Skeleton
import proofs.«135329_j43379169690302_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body stores through: the whole 1 x 128 x 16384 output block. -/
abbrev rOut : Rect S1x128x16384 := Rect.unit (s := S1x128x16384) ![0, 0, 0] S1x128x16384.size inb_S1x128x16384_S1x128x16384_0_0_0

abbrev rQ : Rect S1x128x768 := Rect.unit (s := S1x128x768) ![0, 0, 0] S1x128x768.size inb_S1x128x768_S1x128x768_0_0_0
abbrev rK : Rect S1x256x768 := Rect.unit (s := S1x256x768) ![0, 0, 0] S1x256x768.size inb_S1x256x768_S1x256x768_0_0_0
abbrev rW : Rect S768x64 := Rect.unit (s := S768x64) ![0, 0] S768x64.size inb_S768x64_S768x64_0_0
abbrev rB : Rect S1x64 := Rect.unit (s := S1x64) ![0, 0] S1x64.size inb_S1x64_S1x64_0_0

/-- What the output block's staging buffer holds after the body, from the four input blocks: the one stored
    value, laid over the whole buffer. -/
def outBlock (xq : Vec F S1x128x768 .f32) (xk : Vec F S1x256x768 .f32) (wt : Vec F S768x64 .f32) (bias : Vec F S1x64 .f32) :
    Vec F S1x128x16384 .f32 :=
  View.canon [⟨rOut, k0_pay1 (View.ld xq rQ) (View.ld xk rK) (View.ld wt rW) (View.ld bias rB)⟩]

/-- The store's rectangle is the whole buffer, so it covers every index. -/
theorem outCover (p0 : Vec F S1x128x16384 .f32) (y : S1x128x16384.Idx) :
    ∃ pc ∈ ([⟨rOut, p0⟩] : List (View.Piece (Elt F) S1x128x16384 .f32)), y ∈ pc.1.set :=
  View.cover_of_tiled [⟨rOut, p0⟩] S1x128x16384.size (by rfl) y

set_option maxHeartbeats 1000000 in
/-- The body on whole staging buffers — the four inputs at read contents, the output at anything — runs to the
    continuation holding the inputs as they were and the output at `outBlock` of them. -/
theorem sound_kernel (c : Dev nD) (E : Set ℕ) (i : grid0.Coords)
    (arg2 : Memref sig .tc .vmem S1x128x768 .f32) (harg2 : arg2.IsWhole) (arg3 : Memref sig .tc .vmem S1x256x768 .f32) (harg3 : arg3.IsWhole)
    (arg4 : Memref sig .tc .vmem S768x64 .f32) (harg4 : arg4.IsWhole) (arg5 : Memref sig .tc .vmem S1x64 .f32) (harg5 : arg5.IsWhole)
    (arg6 : Memref sig .tc .vmem S1x128x16384 .f32) (harg6 : arg6.IsWhole)
    (xq : Vec F S1x128x768 .f32) (xk : Vec F S1x256x768 .f32) (wt : Vec F S768x64 .f32) (bias : Vec F S1x64 .f32) (K : PUnit → sProp 𝕄) :
    iprop(owns (c : Thread nD τ) arg2 fullShare xq ∗ owns (c : Thread nD τ) arg3 fullShare xk ∗ owns (c : Thread nD τ) arg4 fullShare wt
        ∗ owns (c : Thread nD τ) arg5 fullShare bias ∗ (∃ d, owns (c : Thread nD τ) arg6 fullShare d)
        ∗ (iprop(owns (c : Thread nD τ) arg2 fullShare xq ∗ owns (c : Thread nD τ) arg3 fullShare xk ∗ owns (c : Thread nD τ) arg4 fullShare wt
            ∗ owns (c : Thread nD τ) arg5 fullShare bias ∗ owns (c : Thread nD τ) arg6 fullShare (outBlock xq xk wt bias)) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

end Cert.Kernel.Frame

end
-- ==== Proof.BitsData.lean ====
/-
  The pipeline's proof data and the body obligation at every grid point, for any float values.

  When the region is entered the arrays hold what the two host operations before it left: the transposed weight and
  the reshaped bias in buffers of their own, the input x as launched. The SAME array x is handed to the kernel through
  two input windows (the 128 query rows of a batch; all 256 rows of the batch), so the two windows hold it at two
  complementary read shares; nothing writes it. Every input window's staging buffer holds, at every point, that
  window's block of its array — fetched there, or left in place since the last fetch because its block index did not
  move. The output window's buffer holds after the body the stored value of the four input blocks.
-/
import proofs.«135329_j43379169690302_2_alg».proof.Proof.BitsBody
import Idealize.ShloMosaic.Lib.StableHlo.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the transpose and the reshape have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry one and whose body leaves the block in place. One lemma per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's buffer
    at its block and the output's at the stored value of the input blocks; the invariant the core's scoped buffers that
    are no staging buffer (there is none); nothing owed; the array x split between its two windows, the other inputs
    whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's run applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.BitsShare.lean ====
/-
  One array behind two input windows: how its ownership is dealt at the region's entry and collected at its exit.

  The pipeline holds each window's array at a share. The input x is behind two windows, so at entry its whole
  ownership is split into two complementary halves, one per window; the transposed weight, the reshaped bias and the
  flat output each sit behind one window and are handed over whole. At exit the two halves of x — both still at the
  entry contents, an input array never being written — are joined back into the whole, and together with the buffers
  no window touches they make the set of buffers the last host operation runs within: the three arguments, the flat
  output at what the write-backs left, and the final result's buffer.
-/
import proofs.«135329_j43379169690302_2_alg».proof.Proof.BitsData
import Idealize.ShloMosaic.Lib.Pipeline.Regions
import Idealize.ShloMosaic.Lib.Pipeline.Frame

set_option maxRecDepth 16384

noncomputable section
namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ)

/-- The distinct buffers behind the five windows' arrays are four: x, the transposed weight, the reshaped bias, the
    flat output. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- Every window's array is a whole buffer: its element set is everything. -/
theorem arr_set (w : Fin 5) : ((cfg0.win w).arr.view.set) = Finset.univ := (arr_whole0 w).set_eq_univ

/-- ENTRY: the four buffers, each whole, are the five windows' arrays at the proof data's shares and entry contents;
    x's ownership is split in two. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list]
  unfold Dat.arrays
  rw [bigSep_W0]
  rw [arr_set 0, arr_set 2, arr_set 3, arr_set 4]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  dsimp only
  rw [show (dats m 0 c).arrAt 0 0 = V m c main_arg0 from A_eq m c 0, show (dats m 0 c).arrAt 1 0 = V m c main_arg0 from A_eq m c 1,
    show (dats m 0 c).arrAt 2 0 = V m c main_v0 from A_eq m c 2, show (dats m 0 c).arrAt 3 0 = V m c main_v1 from A_eq m c 3,
    show (dats m 0 c).arrAt 4 0 = V m c main_v2 from A_eq m c 4]
  iintro ⟨H0, Hv0, Hv1, Hv2⟩
  have hs : (((c : Thread nD τ).loc main_arg0) ↦{fullShare} V m c main_arg0 : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  ihave H := hs $$ H0
  icases H with ⟨Hl, Hr⟩
  isplitl [Hl]; · iexact Hl
  isplitl [Hr]; · iexact Hr
  isplitl [Hv0]; · iexact Hv0
  isplitl [Hv1]; · iexact Hv1
  iexact Hv2

/-- The buffers the last host operation runs within. -/
abbrev tailList : List (DevRef τ sig) :=
  [Proc.devRef .tc main_arg0, Proc.devRef .tc main_arg1, Proc.devRef .tc main_arg2, Proc.devRef .tc main_v2, Proc.devRef .tc main_v3]
def tailSet : Finset (DevRef τ sig) := tailList.toFinset

/-- The buffers' contents when the region is left: as it was entered, but for the flat output, which holds what the
    write-backs of all grid points left. -/
def V1 (c : Dev nD) : Valuation τ sig (Elt F) :=
  Function.update (StableHlo.after hostOps0 (V₀ m c)) (Proc.devRef .tc main_v2) ((dats m 0 c).arrAt 4 cfg0.N)

theorem V1_v2 (c : Dev nD) : V1 m c (Proc.devRef .tc main_v2) = (dats m 0 c).arrAt 4 cfg0.N := Function.update_self ..
theorem V1_of_ne (c : Dev nD) (b : Ref sig .tc) (h : b ≠ main_v2) : V1 m c (Proc.devRef .tc b) = V m c b :=
  Function.update_of_ne (StableHlo.devRef_ne_of_ne h) ..

/-- The tail's buffers one by one. -/
theorem held_tail (c : Dev nD) (W : Valuation τ sig (Elt F)) :
    (StableHlo.held (c : Thread nD τ) tailSet W : sProp 𝕄)
      = iprop((((c : Thread nD τ).1, Proc.devRef .tc main_arg0) ↦{fullShare} W (Proc.devRef .tc main_arg0))
          ∗ (((c : Thread nD τ).1, Proc.devRef .tc main_arg1) ↦{fullShare} W (Proc.devRef .tc main_arg1))
          ∗ (((c : Thread nD τ).1, Proc.devRef .tc main_arg2) ↦{fullShare} W (Proc.devRef .tc main_arg2))
          ∗ (((c : Thread nD τ).1, Proc.devRef .tc main_v2) ↦{fullShare} W (Proc.devRef .tc main_v2))
          ∗ (((c : Thread nD τ).1, Proc.devRef .tc main_v3) ↦{fullShare} W (Proc.devRef .tc main_v3))) := by
  unfold StableHlo.held tailSet
  exact bigSep_eq_bigSepL tailList (by decide) _

/-- EXIT: the windows' arrays at their final contents and the buffers no window touches are the tail's buffers at
    `V1`; x's two halves are joined. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) tailSet (V1 m c) : sProp 𝕄) := by
  rw [unscopedRest0_eq]
  unfold Dat.arrays
  rw [bigSep_W0]
  rw [arr_set 0, arr_set 2, arr_set 3, arr_set 4]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  dsimp only
  rw [show (dats m 0 c).arrAt 0 cfg0.N = V m c main_arg0 from ((dats m 0 c).arrAt_in 0 rfl _).trans (A_eq m c 0),
    show (dats m 0 c).arrAt 1 cfg0.N = V m c main_arg0 from ((dats m 0 c).arrAt_in 1 rfl _).trans (A_eq m c 1)]
  rw [held_tail]
  rw [V1_of_ne m c main_arg0 (by decide), V1_of_ne m c main_arg1 (by decide), V1_of_ne m c main_arg2 (by decide),
    V1_of_ne m c main_v3 (by decide), V1_v2]
  have hj : iprop((((c : Thread nD τ).loc main_arg0) ↦{fullShare.left} V m c main_arg0) ∗ (((c : Thread nD τ).loc main_arg0) ↦{fullShare.right} V m c main_arg0))
      ⊢ (((c : Thread nD τ).loc main_arg0) ↦{fullShare} V m c main_arg0 : sProp 𝕄) :=
    (pointsTo_share (PosShare.mem_left_op_right fullShare)).2
  iintro ⟨⟨Hl, Hr, -, -, Hv2⟩, H1, H2, H3⟩
  ihave H0 := hj $$ [Hl Hr]
  · isplitl [Hl] <;> iassumption
  isplitl [H0]; · iexact H0
  isplitl [H1]; · iexact H1
  isplitl [H2]; · iexact H2
  isplitl [Hv2]; · iexact Hv2
  iexact H3

end Cert.Kernel.Frame
end
-- ==== Proof.BitsRun.lean ====
/-
  The whole program's run, for any float values: two host operations, the kernel region, one host operation.

  The program transposes the weight and reshapes the bias, runs the kernel region over its 4 x 2 grid, and reshapes
  the flat output f32[4, 256, 16384] into the result f32[4, 256, 256, 64]. From any launch memory with zero semaphore
  counters, every weakly fair execution terminates, nothing faulting, and in every final state each of the three
  argument arrays, the flat output and the result holds the contents the three stretches compose to: the arguments
  what they held at launch (no operation writes them and the region only reads x), the flat output what the grid
  points' write-backs left, the result the reshape of that.
  The region is entered with x's ownership split between its two windows and left with it joined again; between the
  stretches the core holds its unscoped buffers at known contents and owes no other core anything.
-/
import proofs.«135329_j43379169690302_2_alg».proof.Proof.BitsShare

set_option maxRecDepth 16384

noncomputable section
namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers through every stretch: that the core owes nothing. -/
abbrev R (c : Dev nD) : sProp 𝕄 := iprop(∃ W, owes (c : Thread nD τ) (0 : CellTallies nD τ sig Unit) W)

/-- The transpose and the reshape before the region, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The reshape after the region, over the arguments, the flat output and the result. -/
def seg1 : Pipeline.HostSeg (Name := ℕ) (U := UR sig nD τ) (pcfgs (F := F)) defs₀ 𝒱₀ L lv :=
  Pipeline.HostSeg.ofOps _ _ _ _ _ tailSet hostOps1
    (by intro op h; rw [List.mem_singleton] at h; subst h; rw [StableHlo.reshape_bufs]; decide)
    (by intro _ h; (repeat (cases h with | head => rfl | tail _ h => ?_)); exact nomatch h) (V1 m) R

set_option backward.isDefEq.respectTransparency.types false in
/-- The region: entered from what the first stretch left, the arrays dealt to the windows (x split), the other
    unscoped buffers bypassing it; left with the tail's buffers at `V1`. The kernel has no semaphore of its own and
    keeps nothing between points but its staging buffers. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) tailSet (V1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Harr := (entry_split m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    ihave Hh := (exit_join m c) $$ [Ha HZ]
    · isplitl [Ha] <;> iassumption
    imodintro
    isplitl [Hh]; · iexact Hh
    unfold Pipeline.Dat.owesAt Pipeline.owesWithin
    icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- The final state: each of the tail's five buffers at what the last stretch leaves it. -/
def QC : PUnit × MemSt nD τ sig (Elt F) → Prop := fun r =>
  ∀ c : Dev nD, ∀ b ∈ (tailSet : Finset (DevRef τ sig)), r.2.mem ((c : Dev nD), b) = StableHlo.after hostOps1 (V1 m c) b

set_option backward.isDefEq.respectTransparency.types false in
/-- At the compiled mesh, for any float values, from any memory with zero counters: every weakly fair execution
    terminates, nothing faulting, in a state satisfying `QC`. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) tailSet (StableHlo.after hostOps1 (V1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (tailSet : Finset (DevRef τ sig)), s.mem ((c : Dev nD), b) = StableHlo.after hostOps1 (V1 m c) b)
    (hfin := fun c s' => by
      unfold StableHlo.held
      iintro ⟨Hh, HSI⟩
      ihave Hr := (pointsTo_read_all tailSet (fun b => ((c : Dev nD), b)) (fun b => StableHlo.after hostOps1 (V1 m c) b) s') $$ [Hh HSI]
      · isplitl [Hh] <;> iassumption
      icases Hr with ⟨%ha, HSI⟩
      imodintro
      isplitr; · ipureintro; exact ha
      iexact HSI)
    (hQ := fun _ h => h)

/-! ## The final state, read -/

/-- Neither host operation before the region writes a buffer other than the transposed weight's and the reshaped
    bias's. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- The host operation after the region writes the result's buffer only. -/
theorem not_written1 (b : Ref sig .tc) (hb : b ≠ main_v3) :
    ∀ op ∈ (hostOps1 (F := F)), Proc.devRef .tc b ∉ op.writes := by
  intro op hop
  simp only [List.mem_cons, List.mem_nil_iff, or_false] at hop
  subst hop
  simp only [StableHlo.reshape_writes, Finset.mem_singleton]
  exact StableHlo.devRef_ne_of_ne hb

/-- A buffer that is none of the four written ones ends as launched. -/
theorem kept (c : Dev nD) (b : Ref sig .tc) (h0 : b ≠ main_v0) (h1 : b ≠ main_v1) (h2 : b ≠ main_v2) (h3 : b ≠ main_v3) :
    StableHlo.after hostOps1 (V1 m c) (Proc.devRef .tc b) = m ((c : Thread nD τ).loc b) :=
  (StableHlo.after_of_forall_not_mem (b := Proc.devRef .tc b) hostOps1 (V1 m c) (not_written1 b h3)).trans
    ((V1_of_ne m c b h2).trans
      (StableHlo.after_of_forall_not_mem (b := Proc.devRef .tc b) hostOps0 (V₀ m c) (not_written0 b ⟨h0, h1⟩)))

/-- The result's buffer ends as the reshape of what the flat output ended at. -/
theorem result_v3 (c : Dev nD) :
    StableHlo.after hostOps1 (V1 m c) (Proc.devRef .tc main_v3)
      = fun i => shapeCast S4x256x256x64 ((dats m 0 c).arrAt 4 cfg0.N) shapeCasts_S4x256x16384_S4x256x256x64 i := by
  simp only [hostOps1, StableHlo.after_cons, StableHlo.after_nil]
  rw [StableHlo.reshape_result', V1_v2]
  rfl

theorem mem_tail_arg0 : Proc.devRef .tc main_arg0 ∈ (tailSet : Finset (DevRef τ sig)) := by decide
theorem mem_tail_arg1 : Proc.devRef .tc main_arg1 ∈ (tailSet : Finset (DevRef τ sig)) := by decide
theorem mem_tail_arg2 : Proc.devRef .tc main_arg2 ∈ (tailSet : Finset (DevRef τ sig)) := by decide
theorem mem_tail_v3 : Proc.devRef .tc main_v3 ∈ (tailSet : Finset (DevRef τ sig)) := by decide

/-- The run with its post read at the result and the three arguments. -/
theorem run_value : θ_run defs (onTc (τ := τ) (main (F := F))) ⟨m, fun _ => 0, ρ⟩ (fun r => ∀ c : Dev nD,
      r.2.mem ((c.tc : Thread nD τ).loc main_v3)
          = (fun i => shapeCast S4x256x256x64 ((dats m 0 c).arrAt 4 cfg0.N) shapeCasts_S4x256x16384_S4x256x256x64 i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ mem_tail_v3).trans (result_v3 m c),
      (h c _ mem_tail_arg0).trans (kept m c main_arg0 (by decide) (by decide) (by decide) (by decide)),
      (h c _ mem_tail_arg1).trans (kept m c main_arg1 (by decide) (by decide) (by decide) (by decide)),
      (h c _ mem_tail_arg2).trans (kept m c main_arg2 (by decide) (by decide) (by decide) (by decide))⟩)
    (run_main m ρ)

/-- The frame: the program runs to the end, faults nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_value m ρ)

end Cert.Kernel.Frame
end
-- ==== Proof.IdealBody.lean ====
/-
  The kernel body's run at one grid point, for any float values.

  One grid point (n, h) of the 4 x 2 grid handles batch n and the 128 query rows 128 h .. 128 h + 127. The body loads
  four input blocks — the 128 query rows of x[n], all 256 rows of x[n], the whole 768 x 64 transposed weight, the
  1 x 64 bias — and writes ONE output block of 128 x 16384 words, whole, through a single rectangle that is the whole
  staging buffer. (It also loads the output buffer before the store; nothing depends on what that load reads.)
  So after the body the output's staging buffer holds exactly the stored value, a pure function of the four loaded
  blocks; the input buffers are left as they were.
-/
import proofs.«135329_j43379169690302_2_alg».proof.Proof.Gen.KernelIdeal.Launch
import proofs.«135329_j43379169690302_2_alg».proof.Proof.Gen.KernelIdeal.Skeleton
import proofs.«135329_j43379169690302_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle the body stores through: the whole 1 x 128 x 16384 output block. -/
abbrev rOut : Rect S1x128x16384 := Rect.unit (s := S1x128x16384) ![0, 0, 0] S1x128x16384.size inb_S1x128x16384_S1x128x16384_0_0_0

abbrev rQ : Rect S1x128x768 := Rect.unit (s := S1x128x768) ![0, 0, 0] S1x128x768.size inb_S1x128x768_S1x128x768_0_0_0
abbrev rK : Rect S1x256x768 := Rect.unit (s := S1x256x768) ![0, 0, 0] S1x256x768.size inb_S1x256x768_S1x256x768_0_0_0
abbrev rW : Rect S768x64 := Rect.unit (s := S768x64) ![0, 0] S768x64.size inb_S768x64_S768x64_0_0
abbrev rB : Rect S1x64 := Rect.unit (s := S1x64) ![0, 0] S1x64.size inb_S1x64_S1x64_0_0

/-- What the output block's staging buffer holds after the body, from the four input blocks: the one stored
    value, laid over the whole buffer. -/
def outBlock (xq : Vec F S1x128x768 .f32) (xk : Vec F S1x256x768 .f32) (wt : Vec F S768x64 .f32) (bias : Vec F S1x64 .f32) :
    Vec F S1x128x16384 .f32 :=
  View.canon [⟨rOut, k0_pay1 (View.ld xq rQ) (View.ld xk rK) (View.ld wt rW) (View.ld bias rB)⟩]

/-- The store's rectangle is the whole buffer, so it covers every index. -/
theorem outCover (p0 : Vec F S1x128x16384 .f32) (y : S1x128x16384.Idx) :
    ∃ pc ∈ ([⟨rOut, p0⟩] : List (View.Piece (Elt F) S1x128x16384 .f32)), y ∈ pc.1.set :=
  View.cover_of_tiled [⟨rOut, p0⟩] S1x128x16384.size (by rfl) y

set_option maxHeartbeats 1000000 in
/-- The body on whole staging buffers — the four inputs at read contents, the output at anything — runs to the
    continuation holding the inputs as they were and the output at `outBlock` of them. -/
theorem sound_kernel (c : Dev nD) (E : Set ℕ) (i : grid0.Coords)
    (arg2 : Memref sig .tc .vmem S1x128x768 .f32) (harg2 : arg2.IsWhole) (arg3 : Memref sig .tc .vmem S1x256x768 .f32) (harg3 : arg3.IsWhole)
    (arg4 : Memref sig .tc .vmem S768x64 .f32) (harg4 : arg4.IsWhole) (arg5 : Memref sig .tc .vmem S1x64 .f32) (harg5 : arg5.IsWhole)
    (arg6 : Memref sig .tc .vmem S1x128x16384 .f32) (harg6 : arg6.IsWhole)
    (xq : Vec F S1x128x768 .f32) (xk : Vec F S1x256x768 .f32) (wt : Vec F S768x64 .f32) (bias : Vec F S1x64 .f32) (K : PUnit → sProp 𝕄) :
    iprop(owns (c : Thread nD τ) arg2 fullShare xq ∗ owns (c : Thread nD τ) arg3 fullShare xk ∗ owns (c : Thread nD τ) arg4 fullShare wt
        ∗ owns (c : Thread nD τ) arg5 fullShare bias ∗ (∃ d, owns (c : Thread nD τ) arg6 fullShare d)
        ∗ (iprop(owns (c : Thread nD τ) arg2 fullShare xq ∗ owns (c : Thread nD τ) arg3 fullShare xk ∗ owns (c : Thread nD τ) arg4 fullShare wt
            ∗ owns (c : Thread nD τ) arg5 fullShare bias ∗ owns (c : Thread nD τ) arg6 fullShare (outBlock xq xk wt bias)) -∗ K ⟨⟩))
      ⊢ wp frame (wpE (defs₀ (F := F)) Variants.none c none) E (cc0__fused_kernel i arg2 harg2 arg3 harg3 arg4 harg4 arg5 harg5 arg6 harg6) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

end Cert.KernelIdeal.Frame

end
-- ==== Proof.IdealData.lean ====
/-
  The pipeline's proof data and the body obligation at every grid point, for any float values.

  When the region is entered the arrays hold what the two host operations before it left: the transposed weight and
  the reshaped bias in buffers of their own, the input x as launched. The SAME array x is handed to the kernel through
  two input windows (the 128 query rows of a batch; all 256 rows of the batch), so the two windows hold it at two
  complementary read shares; nothing writes it. Every input window's staging buffer holds, at every point, that
  window's block of its array — fetched there, or left in place since the last fetch because its block index did not
  move. The output window's buffer holds after the body the stored value of the four input blocks.
-/
import proofs.«135329_j43379169690302_2_alg».proof.Proof.IdealBody
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m ((c : Dev nD), b)
/-- and when the region is entered: the transpose and the reshape have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not, for any proof data whose
    array is the region-entry one and whose body leaves the block in place. One lemma per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's buffer
    at its block and the output's at the stored value of the input blocks; the invariant the core's scoped buffers that
    are no staging buffer (there is none); nothing owed; the array x split between its two windows, the other inputs
    whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlock (iblk m c 0 t) (iblk m c 1 t) (iblk m c 2 t) (iblk m c 3 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d
theorem before_3 (c : Dev nD) (t : Fin cfg0.N) (d) : (dats m 0 c).before 3 t d = iblk m c 3 t :=
  before_in3 m (dats m 0 c) (A_eq m c 3) (after_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's run applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.IdealShare.lean ====
/-
  One array behind two input windows: how its ownership is dealt at the region's entry and collected at its exit.

  The pipeline holds each window's array at a share. The input x is behind two windows, so at entry its whole
  ownership is split into two complementary halves, one per window; the transposed weight, the reshaped bias and the
  flat output each sit behind one window and are handed over whole. At exit the two halves of x — both still at the
  entry contents, an input array never being written — are joined back into the whole, and together with the buffers
  no window touches they make the set of buffers the last host operation runs within: the three arguments, the flat
  output at what the write-backs left, and the final result's buffer.
-/
import proofs.«135329_j43379169690302_2_alg».proof.Proof.IdealData
import Idealize.ShloMosaic.Lib.Pipeline.Regions
import Idealize.ShloMosaic.Lib.Pipeline.Frame

set_option maxRecDepth 16384

noncomputable section
namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ)

/-- The distinct buffers behind the five windows' arrays are four: x, the transposed weight, the reshaped bias, the
    flat output. -/
theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- Every window's array is a whole buffer: its element set is everything. -/
theorem arr_set (w : Fin 5) : ((cfg0.win w).arr.view.set) = Finset.univ := (arr_whole0 w).set_eq_univ

/-- ENTRY: the four buffers, each whole, are the five windows' arrays at the proof data's shares and entry contents;
    x's ownership is split in two. -/
theorem entry_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list]
  unfold Dat.arrays
  rw [bigSep_W0]
  rw [arr_set 0, arr_set 2, arr_set 3, arr_set 4]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  dsimp only
  rw [show (dats m 0 c).arrAt 0 0 = V m c main_arg0 from A_eq m c 0, show (dats m 0 c).arrAt 1 0 = V m c main_arg0 from A_eq m c 1,
    show (dats m 0 c).arrAt 2 0 = V m c main_v0 from A_eq m c 2, show (dats m 0 c).arrAt 3 0 = V m c main_v1 from A_eq m c 3,
    show (dats m 0 c).arrAt 4 0 = V m c main_v2 from A_eq m c 4]
  iintro ⟨H0, Hv0, Hv1, Hv2⟩
  have hs : (((c : Thread nD τ).loc main_arg0) ↦{fullShare} V m c main_arg0 : sProp 𝕄)
      ⊢ iprop((((c : Thread nD τ).loc main_arg0) ↦{fullShare.left} V m c main_arg0) ∗ (((c : Thread nD τ).loc main_arg0) ↦{fullShare.right} V m c main_arg0)) :=
    (pointsTo_share (PosShare.mem_left_op_right fullShare)).1
  ihave H := hs $$ H0
  icases H with ⟨Hl, Hr⟩
  isplitl [Hl]; · iexact Hl
  isplitl [Hr]; · iexact Hr
  isplitl [Hv0]; · iexact Hv0
  isplitl [Hv1]; · iexact Hv1
  iexact Hv2

/-- The buffers the last host operation runs within. -/
abbrev tailList : List (DevRef τ sig) :=
  [Proc.devRef .tc main_arg0, Proc.devRef .tc main_arg1, Proc.devRef .tc main_arg2, Proc.devRef .tc main_v2, Proc.devRef .tc main_v3]
def tailSet : Finset (DevRef τ sig) := tailList.toFinset

/-- The buffers' contents when the region is left: as it was entered, but for the flat output, which holds what the
    write-backs of all grid points left. -/
def V1 (c : Dev nD) : Valuation τ sig (Elt F) :=
  Function.update (StableHlo.after hostOps0 (V₀ m c)) (Proc.devRef .tc main_v2) ((dats m 0 c).arrAt 4 cfg0.N)

theorem V1_v2 (c : Dev nD) : V1 m c (Proc.devRef .tc main_v2) = (dats m 0 c).arrAt 4 cfg0.N := Function.update_self ..
theorem V1_of_ne (c : Dev nD) (b : Ref sig .tc) (h : b ≠ main_v2) : V1 m c (Proc.devRef .tc b) = V m c b :=
  Function.update_of_ne (StableHlo.devRef_ne_of_ne h) ..

/-- The tail's buffers one by one. -/
theorem held_tail (c : Dev nD) (W : Valuation τ sig (Elt F)) :
    (StableHlo.held (c : Thread nD τ) tailSet W : sProp 𝕄)
      = iprop((((c : Thread nD τ).1, Proc.devRef .tc main_arg0) ↦{fullShare} W (Proc.devRef .tc main_arg0))
          ∗ (((c : Thread nD τ).1, Proc.devRef .tc main_arg1) ↦{fullShare} W (Proc.devRef .tc main_arg1))
          ∗ (((c : Thread nD τ).1, Proc.devRef .tc main_arg2) ↦{fullShare} W (Proc.devRef .tc main_arg2))
          ∗ (((c : Thread nD τ).1, Proc.devRef .tc main_v2) ↦{fullShare} W (Proc.devRef .tc main_v2))
          ∗ (((c : Thread nD τ).1, Proc.devRef .tc main_v3) ↦{fullShare} W (Proc.devRef .tc main_v3))) := by
  unfold StableHlo.held tailSet
  exact bigSep_eq_bigSepL tailList (by decide) _

/-- EXIT: the windows' arrays at their final contents and the buffers no window touches are the tail's buffers at
    `V1`; x's two halves are joined. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) tailSet (V1 m c) : sProp 𝕄) := by
  rw [unscopedRest0_eq]
  unfold Dat.arrays
  rw [bigSep_W0]
  rw [arr_set 0, arr_set 2, arr_set 3, arr_set 4]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  dsimp only
  rw [show (dats m 0 c).arrAt 0 cfg0.N = V m c main_arg0 from ((dats m 0 c).arrAt_in 0 rfl _).trans (A_eq m c 0),
    show (dats m 0 c).arrAt 1 cfg0.N = V m c main_arg0 from ((dats m 0 c).arrAt_in 1 rfl _).trans (A_eq m c 1)]
  rw [held_tail]
  rw [V1_of_ne m c main_arg0 (by decide), V1_of_ne m c main_arg1 (by decide), V1_of_ne m c main_arg2 (by decide),
    V1_of_ne m c main_v3 (by decide), V1_v2]
  have hj : iprop((((c : Thread nD τ).loc main_arg0) ↦{fullShare.left} V m c main_arg0) ∗ (((c : Thread nD τ).loc main_arg0) ↦{fullShare.right} V m c main_arg0))
      ⊢ (((c : Thread nD τ).loc main_arg0) ↦{fullShare} V m c main_arg0 : sProp 𝕄) :=
    (pointsTo_share (PosShare.mem_left_op_right fullShare)).2
  iintro ⟨⟨Hl, Hr, -, -, Hv2⟩, H1, H2, H3⟩
  ihave H0 := hj $$ [Hl Hr]
  · isplitl [Hl] <;> iassumption
  isplitl [H0]; · iexact H0
  isplitl [H1]; · iexact H1
  isplitl [H2]; · iexact H2
  isplitl [Hv2]; · iexact Hv2
  iexact H3

end Cert.KernelIdeal.Frame
end
-- ==== Proof.IdealRun.lean ====
/-
  The whole program's run, for any float values: two host operations, the kernel region, one host operation.

  The program transposes the weight and reshapes the bias, runs the kernel region over its 4 x 2 grid, and reshapes
  the flat output f32[4, 256, 16384] into the result f32[4, 256, 256, 64]. From any launch memory with zero semaphore
  counters, every weakly fair execution terminates, nothing faulting, and in every final state each of the three
  argument arrays, the flat output and the result holds the contents the three stretches compose to: the arguments
  what they held at launch (no operation writes them and the region only reads x), the flat output what the grid
  points' write-backs left, the result the reshape of that.
  The region is entered with x's ownership split between its two windows and left with it joined again; between the
  stretches the core holds its unscoped buffers at known contents and owes no other core anything.
-/
import proofs.«135329_j43379169690302_2_alg».proof.Proof.IdealShare

set_option maxRecDepth 16384

noncomputable section
namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers through every stretch: that the core owes nothing. -/
abbrev R (c : Dev nD) : sProp 𝕄 := iprop(∃ W, owes (c : Thread nD τ) (0 : CellTallies nD τ sig Unit) W)

/-- The transpose and the reshape before the region, over the core's unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The reshape after the region, over the arguments, the flat output and the result. -/
def seg1 : Pipeline.HostSeg (Name := ℕ) (U := UR sig nD τ) (pcfgs (F := F)) defs₀ 𝒱₀ L lv :=
  Pipeline.HostSeg.ofOps _ _ _ _ _ tailSet hostOps1
    (by intro op h; rw [List.mem_singleton] at h; subst h; rw [StableHlo.reshape_bufs]; decide)
    (by intro _ h; (repeat (cases h with | head => rfl | tail _ h => ?_)); exact nomatch h) (V1 m) R

set_option backward.isDefEq.respectTransparency.types false in
/-- The region: entered from what the first stretch left, the arrays dealt to the windows (x split), the other
    unscoped buffers bypassing it; left with the tail's buffers at `V1`. The kernel has no semaphore of its own and
    keeps nothing between points but its staging buffers. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) tailSet (V1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (StableHlo.after hostOps0 (V₀ m c)) = unscopedBufs c (V m c) from (Pipeline.unscopedBufs_held c _).symm,
      Pipeline.unscopedBufs_split₀ cfgs 0 winFacts₀0.arr_unscoped c (V m c)]
    iintro ⟨⟨⟨Ha, Hrest⟩, HO⟩, -, -⟩
    ihave Harr := (entry_split m c) $$ Ha
    imodintro
    isplitl [Harr]; · iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩
    iexact Hr
  hout c := by
    rw [Pipeline.ownSems0_none, show (dats m 0 c).Φ (Fin.last cfg0.N) = Pipeline.scopedRest (Ix := Unit) (Name := ℕ) (U := UR sig nD τ) (Lvl := ℕ) (Val := Elt F) spec0 c from rfl]
    iintro Hr
    isplitr; · iempintro
    isplitr; · iempintro
    iexact Hr
  hexit c := by
    iintro ⟨Ha, HO, -, HZ⟩
    ihave Hh := (exit_join m c) $$ [Ha HZ]
    · isplitl [Ha] <;> iassumption
    imodintro
    isplitl [Hh]; · iexact Hh
    unfold Pipeline.Dat.owesAt Pipeline.owesWithin
    icases HO with ⟨%W, -, HO⟩; iexists W; iexact HO

/-- The program as the list of the three. -/
abbrev segs : List (Pipeline.Seg (pcfgs (F := F)) adm (dats m) () defs₀ 𝒱₀ L lv) := [.host (seg0 m), .region (reg0 m), .host (seg1 m)]

/-- The final state: each of the tail's five buffers at what the last stretch leaves it. -/
def QC : PUnit × MemSt nD τ sig (Elt F) → Prop := fun r =>
  ∀ c : Dev nD, ∀ b ∈ (tailSet : Finset (DevRef τ sig)), r.2.mem ((c : Dev nD), b) = StableHlo.after hostOps1 (V1 m c) b

set_option backward.isDefEq.respectTransparency.types false in
/-- At the compiled mesh, for any float values, from any memory with zero counters: every weakly fair execution
    terminates, nothing faulting, in a state satisfying `QC`. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) tailSet (StableHlo.after hostOps1 (V1 m c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (tailSet : Finset (DevRef τ sig)), s.mem ((c : Dev nD), b) = StableHlo.after hostOps1 (V1 m c) b)
    (hfin := fun c s' => by
      unfold StableHlo.held
      iintro ⟨Hh, HSI⟩
      ihave Hr := (pointsTo_read_all tailSet (fun b => ((c : Dev nD), b)) (fun b => StableHlo.after hostOps1 (V1 m c) b) s') $$ [Hh HSI]
      · isplitl [Hh] <;> iassumption
      icases Hr with ⟨%ha, HSI⟩
      imodintro
      isplitr; · ipureintro; exact ha
      iexact HSI)
    (hQ := fun _ h => h)

/-! ## The final state, read -/

/-- Neither host operation before the region writes a buffer other than the transposed weight's and the reshaped
    bias's. -/
theorem not_written0 (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.unary_writes, StableHlo.reshape_writes, Finset.mem_singleton] <;>
    exact StableHlo.devRef_ne_of_ne ‹_›

/-- The host operation after the region writes the result's buffer only. -/
theorem not_written1 (b : Ref sig .tc) (hb : b ≠ main_v3) :
    ∀ op ∈ (hostOps1 (F := F)), Proc.devRef .tc b ∉ op.writes := by
  intro op hop
  simp only [List.mem_cons, List.mem_nil_iff, or_false] at hop
  subst hop
  simp only [StableHlo.reshape_writes, Finset.mem_singleton]
  exact StableHlo.devRef_ne_of_ne hb

/-- A buffer that is none of the four written ones ends as launched. -/
theorem kept (c : Dev nD) (b : Ref sig .tc) (h0 : b ≠ main_v0) (h1 : b ≠ main_v1) (h2 : b ≠ main_v2) (h3 : b ≠ main_v3) :
    StableHlo.after hostOps1 (V1 m c) (Proc.devRef .tc b) = m ((c : Thread nD τ).loc b) :=
  (StableHlo.after_of_forall_not_mem (b := Proc.devRef .tc b) hostOps1 (V1 m c) (not_written1 b h3)).trans
    ((V1_of_ne m c b h2).trans
      (StableHlo.after_of_forall_not_mem (b := Proc.devRef .tc b) hostOps0 (V₀ m c) (not_written0 b ⟨h0, h1⟩)))

/-- The result's buffer ends as the reshape of what the flat output ended at. -/
theorem result_v3 (c : Dev nD) :
    StableHlo.after hostOps1 (V1 m c) (Proc.devRef .tc main_v3)
      = fun i => shapeCast S4x256x256x64 ((dats m 0 c).arrAt 4 cfg0.N) shapeCasts_S4x256x16384_S4x256x256x64 i := by
  simp only [hostOps1, StableHlo.after_cons, StableHlo.after_nil]
  rw [StableHlo.reshape_result', V1_v2]
  rfl

theorem mem_tail_arg0 : Proc.devRef .tc main_arg0 ∈ (tailSet : Finset (DevRef τ sig)) := by decide
theorem mem_tail_arg1 : Proc.devRef .tc main_arg1 ∈ (tailSet : Finset (DevRef τ sig)) := by decide
theorem mem_tail_arg2 : Proc.devRef .tc main_arg2 ∈ (tailSet : Finset (DevRef τ sig)) := by decide
theorem mem_tail_v3 : Proc.devRef .tc main_v3 ∈ (tailSet : Finset (DevRef τ sig)) := by decide

/-- The run with its post read at the result and the three arguments. -/
theorem run_value : θ_run defs (onTc (τ := τ) (main (F := F))) ⟨m, fun _ => 0, ρ⟩ (fun r => ∀ c : Dev nD,
      r.2.mem ((c.tc : Thread nD τ).loc main_v3)
          = (fun i => shapeCast S4x256x256x64 ((dats m 0 c).arrAt 4 cfg0.N) shapeCasts_S4x256x16384_S4x256x256x64 i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c _ mem_tail_v3).trans (result_v3 m c),
      (h c _ mem_tail_arg0).trans (kept m c main_arg0 (by decide) (by decide) (by decide) (by decide)),
      (h c _ mem_tail_arg1).trans (kept m c main_arg1 (by decide) (by decide) (by decide) (by decide)),
      (h c _ mem_tail_arg2).trans (kept m c main_arg2 (by decide) (by decide) (by decide) (by decide))⟩)
    (run_main m ρ)

/-- The frame: the program runs to the end, faults nowhere, and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_value m ρ)

end Cert.KernelIdeal.Frame
end
-- ==== Proof.Payload.lean ====
/-
  The kernel's stored value read at one element. The block the kernel stores at a grid point is, at row r and flat
  column j * 64 + c, the product of row r of the 128-row block with column c of the transposed weight, minus the product
  of row j of the 256-row block with the same column, plus the bias at c: each product a sum over the 768 contraction
  coordinates. The layout operations (shape casts, broadcasts) are read at explicit coordinates one at a time, each
  product through the bijection between the one-axis contraction index and its coordinate.
-/
import proofs.«135329_j43379169690302_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Bridge

open Cert.KernelIdeal Cert.KernelIdeal.Gen Idealize.ShloMosaic Idealize.ShloMosaic.ValueIdx

theorem lhs128_0 (i : S128x64.Idx) (q : dot_S128x768_S768x64_S128x64_1_0_0_1_n_n.contr.Idx) :
    (dot_S128x768_S768x64_S128x64_1_0_0_1_n_n.lhsIdx i q 0).val = (i 0).val := by
  unfold DotDims.lhsIdx
  rw [dif_neg (show ¬(0 : Fin S128x768.rank) ∈ dot_S128x768_S768x64_S128x64_1_0_0_1_n_n.lhsBatch by decide),
    dif_pos (show (0 : Fin S128x768.rank) ∈ dot_S128x768_S768x64_S128x64_1_0_0_1_n_n.lhsNonContracting by decide)]
  rfl
theorem lhs128_1 (i : S128x64.Idx) (q : dot_S128x768_S768x64_S128x64_1_0_0_1_n_n.contr.Idx) :
    (dot_S128x768_S768x64_S128x64_1_0_0_1_n_n.lhsIdx i q 1).val = (q ⟨0, by decide⟩).val :=
  dot_S128x768_S768x64_S128x64_1_0_0_1_n_n.lhsIdx_val_of_single rfl i q
theorem rhs128_0 (i : S128x64.Idx) (q : dot_S128x768_S768x64_S128x64_1_0_0_1_n_n.contr.Idx) :
    (dot_S128x768_S768x64_S128x64_1_0_0_1_n_n.rhsIdx i q 0).val = (q ⟨0, by decide⟩).val :=
  dot_S128x768_S768x64_S128x64_1_0_0_1_n_n.rhsIdx_val_of_single rfl i q
theorem rhs128_1 (i : S128x64.Idx) (q : dot_S128x768_S768x64_S128x64_1_0_0_1_n_n.contr.Idx) :
    (dot_S128x768_S768x64_S128x64_1_0_0_1_n_n.rhsIdx i q 1).val = (i 1).val := by
  unfold DotDims.rhsIdx
  rw [dif_neg (show ¬(1 : Fin S768x64.rank) ∈ dot_S128x768_S768x64_S128x64_1_0_0_1_n_n.rhsBatch by decide),
    dif_pos (show (1 : Fin S768x64.rank) ∈ dot_S128x768_S768x64_S128x64_1_0_0_1_n_n.rhsNonContracting by decide)]
  rfl

/-- The 128-row product into the zero accumulator, read at row r and column c: the sum over the 768 contraction
    coordinates of the left operand at (r, k) times the right operand at (k, c). -/
theorem mm128_apply (a : FVec Ideal S128x768 .f32) (w : FVec Ideal S768x64 .f32) (r : Fin 128) (c : Fin 64) :
    matmul dot_S128x768_S768x64_S128x64_1_0_0_1_n_n (some .fp32) a w (constant S128x64 .f32 0x00000000#32) (ix2 r c)
      = ∑ k : Fin 768, a (ix2 r k) * w (ix2 k c) := by
  simp only [matmul]
  rw [Ideal.matmul_constant_zero_apply,
    ← Equiv.sum_comp (contrEquiv1 dot_S128x768_S768x64_S128x64_1_0_0_1_n_n 768 rfl rfl).symm]
  refine Finset.sum_congr rfl fun k _ => ?_
  have hk := contrEquiv1_symm_val dot_S128x768_S768x64_S128x64_1_0_0_1_n_n 768 rfl rfl k
  have el : dot_S128x768_S768x64_S128x64_1_0_0_1_n_n.lhsIdx (ix2 r c)
      ((contrEquiv1 dot_S128x768_S768x64_S128x64_1_0_0_1_n_n 768 rfl rfl).symm k) = ix2 r k :=
    funext fun a => Fin.ext (by
      match a with
      | ⟨0, _⟩ => exact lhs128_0 _ _
      | ⟨1, _⟩ => exact (lhs128_1 _ _).trans hk)
  have er : dot_S128x768_S768x64_S128x64_1_0_0_1_n_n.rhsIdx (ix2 r c)
      ((contrEquiv1 dot_S128x768_S768x64_S128x64_1_0_0_1_n_n 768 rfl rfl).symm k) = ix2 k c :=
    funext fun a => Fin.ext (by
      match a with
      | ⟨0, _⟩ => exact (rhs128_0 _ _).trans hk
      | ⟨1, _⟩ => exact rhs128_1 _ _)
  rw [el, er]

theorem lhs256_0 (i : S256x64.Idx) (q : dot_S256x768_S768x64_S256x64_1_0_0_1_n_n.contr.Idx) :
    (dot_S256x768_S768x64_S256x64_1_0_0_1_n_n.lhsIdx i q 0).val = (i 0).val := by
  unfold DotDims.lhsIdx
  rw [dif_neg (show ¬(0 : Fin S256x768.rank) ∈ dot_S256x768_S768x64_S256x64_1_0_0_1_n_n.lhsBatch by decide),
    dif_pos (show (0 : Fin S256x768.rank) ∈ dot_S256x768_S768x64_S256x64_1_0_0_1_n_n.lhsNonContracting by decide)]
  rfl
theorem lhs256_1 (i : S256x64.Idx) (q : dot_S256x768_S768x64_S256x64_1_0_0_1_n_n.contr.Idx) :
    (dot_S256x768_S768x64_S256x64_1_0_0_1_n_n.lhsIdx i q 1).val = (q ⟨0, by decide⟩).val :=
  dot_S256x768_S768x64_S256x64_1_0_0_1_n_n.lhsIdx_val_of_single rfl i q
theorem rhs256_0 (i : S256x64.Idx) (q : dot_S256x768_S768x64_S256x64_1_0_0_1_n_n.contr.Idx) :
    (dot_S256x768_S768x64_S256x64_1_0_0_1_n_n.rhsIdx i q 0).val = (q ⟨0, by decide⟩).val :=
  dot_S256x768_S768x64_S256x64_1_0_0_1_n_n.rhsIdx_val_of_single rfl i q
theorem rhs256_1 (i : S256x64.Idx) (q : dot_S256x768_S768x64_S256x64_1_0_0_1_n_n.contr.Idx) :
    (dot_S256x768_S768x64_S256x64_1_0_0_1_n_n.rhsIdx i q 1).val = (i 1).val := by
  unfold DotDims.rhsIdx
  rw [dif_neg (show ¬(1 : Fin S768x64.rank) ∈ dot_S256x768_S768x64_S256x64_1_0_0_1_n_n.rhsBatch by decide),
    dif_pos (show (1 : Fin S768x64.rank) ∈ dot_S256x768_S768x64_S256x64_1_0_0_1_n_n.rhsNonContracting by decide)]
  rfl

/-- The 256-row product into the zero accumulator, read at row r and column c: the sum over the 768 contraction
    coordinates of the left operand at (r, k) times the right operand at (k, c). -/
theorem mm256_apply (a : FVec Ideal S256x768 .f32) (w : FVec Ideal S768x64 .f32) (r : Fin 256) (c : Fin 64) :
    matmul dot_S256x768_S768x64_S256x64_1_0_0_1_n_n (some .fp32) a w (constant S256x64 .f32 0x00000000#32) (ix2 r c)
      = ∑ k : Fin 768, a (ix2 r k) * w (ix2 k c) := by
  simp only [matmul]
  rw [Ideal.matmul_constant_zero_apply,
    ← Equiv.sum_comp (contrEquiv1 dot_S256x768_S768x64_S256x64_1_0_0_1_n_n 768 rfl rfl).symm]
  refine Finset.sum_congr rfl fun k _ => ?_
  have hk := contrEquiv1_symm_val dot_S256x768_S768x64_S256x64_1_0_0_1_n_n 768 rfl rfl k
  have el : dot_S256x768_S768x64_S256x64_1_0_0_1_n_n.lhsIdx (ix2 r c)
      ((contrEquiv1 dot_S256x768_S768x64_S256x64_1_0_0_1_n_n 768 rfl rfl).symm k) = ix2 r k :=
    funext fun a => Fin.ext (by
      match a with
      | ⟨0, _⟩ => exact lhs256_0 _ _
      | ⟨1, _⟩ => exact (lhs256_1 _ _).trans hk)
  have er : dot_S256x768_S768x64_S256x64_1_0_0_1_n_n.rhsIdx (ix2 r c)
      ((contrEquiv1 dot_S256x768_S768x64_S256x64_1_0_0_1_n_n 768 rfl rfl).symm k) = ix2 k c :=
    funext fun a => Fin.ext (by
      match a with
      | ⟨0, _⟩ => exact (rhs256_0 _ _).trans hk
      | ⟨1, _⟩ => exact rhs256_1 _ _)
  rw [el, er]

section Layout
variable {α : Type}

/-- Adding the leading unit axis to a [128, 16384] value: (0, r, m) reads (r, m). -/
theorem cast_1x128x16384_apply (x : S128x16384.Idx → α) (h : S128x16384.ShapeCasts S1x128x16384) (r : Fin 128) (m : Fin 16384) :
    shapeCast S1x128x16384 x h (ix3 0 r m) = x (ix2 r m) :=
  shapeCast_apply x h _ _ (by
    rw [Shape.rowMajor_val_two, Shape.rowMajor_val_three]
    show r.val * 16384 + m.val = (0 * 128 + r.val) * 16384 + m.val
    omega)

/-- Flattening the last two axes of a [128, 256, 64] value: (r, j * 64 + c) reads (r, j, c). -/
theorem cast_128x16384_apply (x : S128x256x64.Idx → α) (h : S128x256x64.ShapeCasts S128x16384) (r : Fin 128) (j : Fin 256) (c : Fin 64) :
    shapeCast S128x16384 x h (ix2 r ⟨j.val * 64 + c.val, by omega⟩) = x (ix3 r j c) :=
  shapeCast_apply x h _ _ (by
    rw [Shape.rowMajor_val_two, Shape.rowMajor_val_three]
    show (r.val * 256 + j.val) * 64 + c.val = r.val * 16384 + (j.val * 64 + c.val)
    omega)

/-- A [128, 1, 64] value broadcast along its unit axis: (r, j, c) reads (r, 0, c). -/
theorem bcast_128x1x64_apply (x : S128x1x64.Idx → α) (h : S128x1x64.Broadcasts S128x256x64) (r : Fin 128) (j : Fin 256) (c : Fin 64) :
    broadcastTo S128x256x64 x h (ix3 r j c) = x (ix3 r 0 c) :=
  broadcastTo_apply x h _ _ (fun a => match a with
    | ⟨0, _⟩ => rfl
    | ⟨1, _⟩ => rfl
    | ⟨2, _⟩ => rfl)

/-- A [1, 256, 64] value broadcast along its unit axis: (r, j, c) reads (0, j, c). -/
theorem bcast_1x256x64_apply (x : S1x256x64.Idx → α) (h : S1x256x64.Broadcasts S128x256x64) (r : Fin 128) (j : Fin 256) (c : Fin 64) :
    broadcastTo S128x256x64 x h (ix3 r j c) = x (ix3 0 j c) :=
  broadcastTo_apply x h _ _ (fun a => match a with
    | ⟨0, _⟩ => rfl
    | ⟨1, _⟩ => rfl
    | ⟨2, _⟩ => rfl)

/-- A [1, 1, 64] value broadcast along its two unit axes: (r, j, c) reads (0, 0, c). -/
theorem bcast_1x1x64_apply (x : S1x1x64.Idx → α) (h : S1x1x64.Broadcasts S128x256x64) (r : Fin 128) (j : Fin 256) (c : Fin 64) :
    broadcastTo S128x256x64 x h (ix3 r j c) = x (ix3 0 0 c) :=
  broadcastTo_apply x h _ _ (fun a => match a with
    | ⟨0, _⟩ => rfl
    | ⟨1, _⟩ => rfl
    | ⟨2, _⟩ => rfl)

/-- A [128, 64] value with a unit axis inserted in the middle: (r, 0, c) reads (r, c). -/
theorem cast_128x1x64_apply (x : S128x64.Idx → α) (h : S128x64.ShapeCasts S128x1x64) (r : Fin 128) (c : Fin 64) :
    shapeCast S128x1x64 x h (ix3 r 0 c) = x (ix2 r c) :=
  shapeCast_apply x h _ _ (by
    rw [Shape.rowMajor_val_two, Shape.rowMajor_val_three]
    show r.val * 64 + c.val = (r.val * 1 + 0) * 64 + c.val
    omega)

/-- A [256, 64] value with a leading unit axis: (0, j, c) reads (j, c). -/
theorem cast_1x256x64_apply (x : S256x64.Idx → α) (h : S256x64.ShapeCasts S1x256x64) (j : Fin 256) (c : Fin 64) :
    shapeCast S1x256x64 x h (ix3 0 j c) = x (ix2 j c) :=
  shapeCast_apply x h _ _ (by
    rw [Shape.rowMajor_val_two, Shape.rowMajor_val_three]
    show j.val * 64 + c.val = (0 * 256 + j.val) * 64 + c.val
    omega)

/-- A [1, 64] value with a second leading unit axis: (0, 0, c) reads (0, c). -/
theorem cast_1x1x64_apply (x : S1x64.Idx → α) (h : S1x64.ShapeCasts S1x1x64) (c : Fin 64) :
    shapeCast S1x1x64 x h (ix3 0 0 c) = x (ix2 0 c) :=
  shapeCast_apply x h _ _ (by
    rw [Shape.rowMajor_val_two, Shape.rowMajor_val_three]
    show 0 * 64 + c.val = (0 * 1 + 0) * 64 + c.val
    omega)

/-- Dropping the leading unit axis of a [1, 128, 768] block: (r, k) reads (0, r, k). -/
theorem cast_128x768_apply (x : S1x128x768.Idx → α) (h : S1x128x768.ShapeCasts S128x768) (r : Fin 128) (k : Fin 768) :
    shapeCast S128x768 x h (ix2 r k) = x (ix3 0 r k) :=
  shapeCast_apply x h _ _ (by
    rw [Shape.rowMajor_val_two, Shape.rowMajor_val_three]
    show (0 * 128 + r.val) * 768 + k.val = r.val * 768 + k.val
    omega)

/-- Dropping the leading unit axis of a [1, 256, 768] block: (j, k) reads (0, j, k). -/
theorem cast_256x768_apply (x : S1x256x768.Idx → α) (h : S1x256x768.ShapeCasts S256x768) (j : Fin 256) (k : Fin 768) :
    shapeCast S256x768 x h (ix2 j k) = x (ix3 0 j k) :=
  shapeCast_apply x h _ _ (by
    rw [Shape.rowMajor_val_two, Shape.rowMajor_val_three]
    show (0 * 256 + j.val) * 768 + k.val = j.val * 768 + k.val
    omega)

end Layout

/-- The stored block read at row r and flat column j * 64 + c: the row-r product minus the row-j product plus the bias
    at c. -/
theorem pay_apply (v0 : Vec Ideal S1x128x768 .f32) (v2 : Vec Ideal S1x256x768 .f32) (v4 : Vec Ideal S768x64 .f32)
    (v8 : Vec Ideal S1x64 .f32) (r : Fin 128) (j : Fin 256) (c : Fin 64) :
    k0_pay1 (F := Ideal) v0 v2 v4 v8 (ix3 0 r ⟨j.val * 64 + c.val, by omega⟩)
      = (∑ k : Fin 768, v0 (ix3 0 r k) * v4 (ix2 k c)) - (∑ k : Fin 768, v2 (ix3 0 j k) * v4 (ix2 k c)) + v8 (ix2 0 c) := by
  unfold k0_pay1
  refine (cast_1x128x16384_apply _ _ r _).trans ?_
  refine (cast_128x16384_apply _ _ r j c).trans ?_
  show (broadcastTo S128x256x64 _ _ (ix3 r j c) - broadcastTo S128x256x64 _ _ (ix3 r j c))
      + broadcastTo S128x256x64 _ _ (ix3 r j c) = _
  refine congrArg₂ (· + ·) (congrArg₂ (· - ·) ?_ ?_) ?_
  · refine (bcast_128x1x64_apply _ _ r j c).trans ?_
    refine (cast_128x1x64_apply _ _ r c).trans ?_
    refine (mm128_apply _ _ r c).trans ?_
    refine Finset.sum_congr rfl fun k _ => ?_
    exact congrArg₂ (· * ·) (cast_128x768_apply _ _ r k) (congrFun (shapeCast_self _ _) _)
  · refine (bcast_1x256x64_apply _ _ r j c).trans ?_
    refine (cast_1x256x64_apply _ _ j c).trans ?_
    refine (mm256_apply _ _ j c).trans ?_
    refine Finset.sum_congr rfl fun k _ => ?_
    exact congrArg₂ (· * ·) (cast_256x768_apply _ _ j k) (congrFun (shapeCast_self _ _) _)
  · refine (bcast_1x1x64_apply _ _ r j c).trans ?_
    refine (cast_1x1x64_apply _ _ c).trans ?_
    exact congrFun (shapeCast_self _ _) _

end Cert.Bridge

end
-- ==== Proof.Layout.lean ====
/-
  The host-side layout operations read at one element: the transpose of the weight, the reshape of the bias to a
  one-row matrix, and the reshape that splits the flat last axis of the kernel's result into (256, 64). A reshape keeps
  the row-major position, so (n, a, b, c) of the split result is (n, a, b * 64 + c) of the flat one.
-/
import proofs.«135329_j43379169690302_2_alg».proof.KernelIdeal
import Idealize.ShloMosaic.Lib.Pipeline.Value
import Idealize.ShloMosaic.Lib.ValueIdx

noncomputable section

namespace Cert.Bridge

open Cert.KernelIdeal Idealize.ShloMosaic Idealize.ShloMosaic.ValueIdx

section HostLayout
variable {α : Type}

/-- The transposed weight at (k, c) is the weight at (c, k). -/
theorem transpose_at (w : S64x768.Idx → α) (h : S64x768.Transposes [1, 0] S768x64) (k : Fin 768) (c : Fin 64) :
    transpose S768x64 [1, 0] w h (ix2 k c) = w (ix2 c k) :=
  transpose_apply [1, 0] w h _ _ (fun b => match b with
    | ⟨0, _⟩ => rfl
    | ⟨1, _⟩ => rfl)

/-- The bias reshaped to one row: (0, c) reads c. -/
theorem reshape_bias_at (x : S64.Idx → α) (h : S64.ShapeCasts S1x64) (c : Fin 64) :
    shapeCast S1x64 x h (ix2 0 c) = x (ix1 c) :=
  shapeCast_apply x h _ _ (by
    rw [Shape.rowMajor_val_one, Shape.rowMajor_val_two]
    show c.val = 0 * 64 + c.val
    omega)

/-- The result with its flat last axis split: (n, a, b, c) reads (n, a, b * 64 + c). -/
theorem reshape_out_ix4 (x : S4x256x16384.Idx → α) (h : S4x256x16384.ShapeCasts S4x256x256x64)
    (n : Fin 4) (a b : Fin 256) (c : Fin 64) :
    shapeCast S4x256x256x64 x h (ix4 n a b c) = x (ix3 n a ⟨b.val * 64 + c.val, by omega⟩) :=
  shapeCast_apply x h _ _ (by
    rw [Shape.rowMajor_val_three, Shape.rowMajor_val_four]
    show (n.val * 256 + a.val) * 16384 + (b.val * 64 + c.val) = ((n.val * 256 + a.val) * 256 + b.val) * 64 + c.val
    omega)

/-- The same at any index, in its coordinates. -/
theorem reshape_out_at (x : S4x256x16384.Idx → α) (h : S4x256x16384.ShapeCasts S4x256x256x64) (i : S4x256x256x64.Idx) :
    shapeCast S4x256x256x64 x h i
      = x (ix3 (i 0) (i 1) ⟨(i 2).val * 64 + (i 3).val, by
          have h2 : (i 2).val < 256 := (i 2).isLt
          have h3 : (i 3).val < 64 := (i 3).isLt
          omega⟩) :=
  (congrArg (shapeCast S4x256x256x64 x h) (eq_ix4 i)).trans (reshape_out_ix4 x h (i 0) (i 1) (i 2) (i 3))

end HostLayout

end Cert.Bridge

end
-- ==== Proof.LibSubDot.lean ====
/-
  The algebra of the two sides. Over the extended reals, with every operand finite, a difference of two dot products
  against the same vector is the dot product of the difference: the operands are real numbers, the coercion from the
  reals commutes with finite sums, products and differences, and in the reals multiplication distributes over
  subtraction under a finite sum.
-/
import Idealize.ShloMosaic.PureOps.Ideal
import Idealize.ShloMosaic.Lib.ValueIdx

noncomputable section

open scoped BigOperators

namespace Cert.Bridge

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Finite operands: the difference of two dot products against w, plus β, is the dot product of the difference, plus β. -/
theorem sub_dot_gen {n : Nat} (a b w : Fin n → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β := by
  choose ar har using ha
  choose br hbr using hb
  choose wr hwr using hw
  have h1 : ∑ k, a k * w k = ((∑ k, ar k * wr k : ℝ) : EReal) := by
    rw [coe_sum]
    exact Finset.sum_congr rfl fun k _ => by rw [har, hwr, EReal.coe_mul]
  have h2 : ∑ k, b k * w k = ((∑ k, br k * wr k : ℝ) : EReal) := by
    rw [coe_sum]
    exact Finset.sum_congr rfl fun k _ => by rw [hbr, hwr, EReal.coe_mul]
  have h3 : ∑ k, (a k - b k) * w k = ((∑ k, (ar k - br k) * wr k : ℝ) : EReal) := by
    rw [coe_sum]
    exact Finset.sum_congr rfl fun k _ => by rw [har, hbr, hwr, ← EReal.coe_sub, EReal.coe_mul]
  rw [h1, h2, h3, ← EReal.coe_sub, ← Finset.sum_sub_distrib]
  refine congrArg (fun t : ℝ => (t : EReal) + β) (Finset.sum_congr rfl fun k _ => ?_)
  rw [sub_mul]

/-- The instance at the 768 feature coordinates. -/
theorem sub_dot (a b w : Fin 768 → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β :=
  sub_dot_gen a b w β ha hb hw

end Cert.Bridge

end
-- ==== Proof.IdealValue.lean ====
/-
  The kernel's value at the ideal instance: the result array as one function of the launch arrays.

  Each grid point (n, h) stores one 128 x 16384 block of the flat output f32[4, 256, 16384]: rows 128 h .. 128 h + 127
  of batch n. At row a and flat column q = b * 64 + c the stored value is the product of row a of x[n] with column c
  of the transposed weight, minus the product of row b of x[n] with the same column, plus the bias at c: the query-row
  block read where the output block sits, the whole-batch block at its batch, the weight and bias blocks whole. The
  eight blocks tile the flat array, so after the region the flat array is that function everywhere. Splitting the flat
  column into (b, c), reading the transposed weight and the reshaped bias back at the launch arrays, and — the inputs
  being finite — merging the two products into the product of the difference gives the reference's function.
-/
import proofs.«135329_j43379169690302_2_alg».proof.Proof.IdealData
import proofs.«135329_j43379169690302_2_alg».proof.Proof.Payload
import proofs.«135329_j43379169690302_2_alg».proof.Proof.Layout
import proofs.«135329_j43379169690302_2_alg».proof.Proof.LibSubDot
import Idealize.ShloMosaic.Lib.Pipeline.Value

noncomputable section

namespace Cert.KernelIdeal.Frame

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (m : (ℓ : Loc nD τ sig) → Buf (Elt Ideal) ℓ)

/-- The flat output at (n, a, q): with q = b * 64 + c, the product of row a of x[n] with column c of the transposed
    weight, minus the product of row b of x[n] with the same column, plus the bias at c. -/
def gflat (x : S4x256x768.Idx → EReal) (wt : S768x64.Idx → EReal) (bias : S1x64.Idx → EReal)
    (n : Fin 4) (a : Fin 256) (q : Fin 16384) : EReal :=
  (∑ k : Fin 768, x (ix3 n a k) * wt (ix2 k ⟨q.val % 64, Nat.mod_lt _ (by decide)⟩))
    - (∑ k : Fin 768, x (ix3 n ⟨q.val / 64, by have := q.isLt; omega⟩ k) * wt (ix2 k ⟨q.val % 64, Nat.mod_lt _ (by decide)⟩))
    + bias (ix2 0 ⟨q.val % 64, Nat.mod_lt _ (by decide)⟩)

/-- The flat output array as one function of the arrays the region finds. -/
def Gflat (x : S4x256x768.Idx → EReal) (wt : S768x64.Idx → EReal) (bias : S1x64.Idx → EReal) :
    S4x256x16384.Idx → EReal :=
  fun i => gflat x wt bias (i 0) (i 1) (i 2)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The index maps over the grid: the query-row window moves with the output block, the whole-batch window with its
    batch coordinate only, the weight and bias windows stay at their one block, and the output's block indices range
    over 4 batches and 2 row halves. -/
theorem index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 1 ∧ win0_4.index t (2 : Fin 3) = 0 :=
  (by decide +kernel : ∀ t : Fin grid0.N, _)

/-- Every (batch, row half) is some point's output block. -/
theorem index_onto : ∀ (q0 : Fin 4) (q1 : Fin 2), ∃ t : Fin cfg0.N, win0_4.index t = ![q0.val, q1.val, 0] :=
  (by decide +kernel : ∀ (q0 : Fin 4) (q1 : Fin 2), ∃ t : Fin grid0.N, win0_4.index t = ![q0.val, q1.val, 0])

/-- One element of the stored block against the flat output: if the four blocks are the windows' blocks of the
    arrays — the query block's row y 1 is row i 1 of batch i 0, the whole-batch block is batch i 0, the weight and
    bias blocks are the whole arrays — and the flat column is the same, the stored value at y is the flat output at i. -/
theorem point_eq (X : S4x256x768.Idx → EReal) (WT : S768x64.Idx → EReal) (B : S1x64.Idx → EReal)
    (b0 : Vec Ideal S1x128x768 .f32) (b1 : Vec Ideal S1x256x768 .f32) (b2 : Vec Ideal S768x64 .f32)
    (b3 : Vec Ideal S1x64 .f32) (y : S1x128x16384.Idx) (i : S4x256x16384.Idx)
    (h0 : ∀ k : Fin 768, b0 (ix3 0 (y 1) k) = X (ix3 (i 0) (i 1) k))
    (h1 : ∀ (j : Fin 256) (k : Fin 768), b1 (ix3 0 j k) = X (ix3 (i 0) j k))
    (h2 : ∀ (k : Fin 768) (cc : Fin 64), b2 (ix2 k cc) = WT (ix2 k cc))
    (h3 : ∀ cc : Fin 64, b3 (ix2 0 cc) = B (ix2 0 cc))
    (h4 : (i 2).val = (y 2).val) :
    k0_pay1 (F := Ideal) b0 b1 b2 b3 y = Gflat X WT B i := by
  have hy2 : (y 2).val < 16384 := (y 2).isLt
  have ey : y = ix3 0 (y 1) ⟨(y 2).val / 64 * 64 + (y 2).val % 64, by omega⟩ := by
    funext a
    match a with
    | ⟨0, _⟩ => exact Fin.ext (by have h : (y 0).val < 1 := (y 0).isLt; show (y 0).val = 0; omega)
    | ⟨1, _⟩ => rfl
    | ⟨2, _⟩ => exact Fin.ext (by show (y 2).val = (y 2).val / 64 * 64 + (y 2).val % 64; omega)
  refine (congrArg (k0_pay1 (F := Ideal) b0 b1 b2 b3) ey).trans ?_
  refine (pay_apply b0 b1 b2 b3 (y 1) ⟨(y 2).val / 64, by omega⟩ ⟨(y 2).val % 64, Nat.mod_lt _ (by decide)⟩).trans ?_
  have e2 : i 2 = ⟨(y 2).val, hy2⟩ := Fin.ext h4
  unfold Gflat gflat
  rw [e2]
  simp only [h0, h1, h2, h3]

/-- What the output window's block holds after the body at point t is block t of the flat output. -/
theorem flushed_out (c : Dev nD) (t : Fin cfg0.N) :
    (dats m 0 c).flushed 4 t
      = ((cfg0.win 4).blk t).view.read (Elt Ideal) (Gflat (V m c main_arg0) (V m c main_v0) (V m c main_v1)) := by
  show (cfg0.win 4).cut (grid0.coords t) ((dats m 0 c).after 4 t) = _
  rw [after_4]
  unfold outBlock
  rw [View.canon_unit_zero zeros3]
  simp only [View.ld_unit_zero (S := S1x128x768) zeros3, View.ld_unit_zero (S := S1x256x768) zeros3,
    View.ld_unit_zero (S := S768x64) zeros2, View.ld_unit_zero (S := S1x64) zeros2]
  obtain ⟨e00, e01, e02, e10, e11, e12, e20, e21, e30, e31, b40, b41, e42⟩ := index_facts t
  funext j
  show k0_pay1 (F := Ideal) (iblk m c 0 t) (iblk m c 1 t) (iblk m c 2 t) (iblk m c 3 t) j
      = Gflat (V m c main_arg0) (V m c main_v0) (V m c main_v1) (((cfg0.win 4).blk t).view.emb j)
  have hj0 : (j 0).val < 1 := (j 0).isLt
  have hj1 : (j 1).val < 128 := (j 1).isLt
  have hj2 : (j 2).val < 16384 := (j 2).isLt
  refine point_eq (V m c main_arg0) (V m c main_v0) (V m c main_v1) _ _ _ _ j _ (fun k => ?_) (fun jj k => ?_)
    (fun k cc => ?_) (fun cc => ?_) ?_
  · show V m c main_arg0 (((cfg0.win 0).blk t).view.emb (ix3 0 (j 1) k)) = V m c main_arg0 _
    refine congrArg (V m c main_arg0) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 128 + 1 * (j 1).val = win0_4.index t (1 : Fin 3) * 128 + 1 * (j 1).val; omega
    | ⟨2, _⟩ => show win0_0.index t (2 : Fin 3) * 768 + 1 * k.val = k.val; omega
  · show V m c main_arg0 (((cfg0.win 1).blk t).view.emb (ix3 0 jj k)) = V m c main_arg0 _
    refine congrArg (V m c main_arg0) (funext fun a => Fin.ext ?_)
    match a with
    | ⟨0, _⟩ => show win0_1.index t (0 : Fin 3) * 1 + 1 * 0 = win0_4.index t (0 : Fin 3) * 1 + 1 * (j 0).val; omega
    | ⟨1, _⟩ => show win0_1.index t (1 : Fin 3) * 256 + 1 * jj.val = jj.val; omega
    | ⟨2, _⟩ => show win0_1.index t (2 : Fin 3) * 768 + 1 * k.val = k.val; omega
  · show V m c main_v0 (((cfg0.win 2).blk t).view.emb (ix2 k cc)) = V m c main_v0 _
    refine congrArg (V m c main_v0) (funext fun a => Fin.ext ?_)
    match a with
    | ⟨0, _⟩ => show win0_2.index t (0 : Fin 2) * 768 + 1 * k.val = k.val; omega
    | ⟨1, _⟩ => show win0_2.index t (1 : Fin 2) * 64 + 1 * cc.val = cc.val; omega
  · show V m c main_v1 (((cfg0.win 3).blk t).view.emb (ix2 0 cc)) = V m c main_v1 _
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 64 + 1 * cc.val = cc.val; omega
  · show win0_4.index t (2 : Fin 3) * 16384 + 1 * (j 2).val = (j 2).val
    omega

/-- An index of the flat output is in point t's block iff each coordinate is in the block's range on its axis. -/
theorem mem_blk_out (t : Fin cfg0.N) (i : S4x256x16384.Idx) :
    i ∈ ((cfg0.win 4).blk t).view.set ↔ ∀ a : Fin 3, win0_4.index t a * S1x128x16384.size a ≤ (i a).val
      ∧ (i a).val < win0_4.index t a * S1x128x16384.size a + S1x128x16384.size a := by
  show i ∈ ((View.whole main_v2).slice (win0_4.rect t)).set ↔ _
  rw [View.set_slice_whole, Rect.mem_set_unit]
  exact Iff.rfl

/-- The output's blocks tile the flat array: row a of batch n is in the block of the point (n, a / 128). -/
theorem cover_out (i : S4x256x16384.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 16384 := (i 2).isLt
  obtain ⟨t, ht⟩ := index_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk_out]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 16384 ≤ (i 2).val ∧ (i 2).val < win0_4.index t (2 : Fin 3) * 16384 + 16384; omega

/-- The flat output array after the region: the flat output function of the arrays the region finds. -/
theorem final_flat (c : Dev nD) :
    (dats m 0 c).arrAt 4 cfg0.N = Gflat (V m c main_arg0) (V m c main_v0) (V m c main_v1) :=
  (dats m 0 c).arrAt_eq_of_cover 4 (Gflat (V m c main_arg0) (V m c main_v0) (V m c main_v1))
    (fun t _ => flushed_out m c t) cover_out

/-- The three launch arrays on core c, as functions of an index into the extended reals. -/
abbrev argX (c : Dev nD) : S4x256x768.Idx → EReal := m ((c : Thread nD τ).loc main_arg0)
abbrev argW (c : Dev nD) : S64x768.Idx → EReal := m ((c : Thread nD τ).loc main_arg1)
abbrev argB (c : Dev nD) : S64.Idx → EReal := m ((c : Thread nD τ).loc main_arg2)

/-- The input x is as launched when the region is entered; -/
theorem V_arg0 (c : Dev nD) : (V m c main_arg0 : S4x256x768.Idx → EReal) = argX m c := by
  dsimp only [V, hostOps0]
  after_results
/-- the weight window's array is the transposed weight; -/
theorem V_v0 (c : Dev nD) : (V m c main_v0 : S768x64.Idx → EReal)
    = transpose S768x64 [1, 0] (argW m c) transposes_S64x768_S768x64_1_0 := by
  dsimp only [V, hostOps0]
  after_results
/-- the bias window's array is the bias reshaped to one row. -/
theorem V_v1 (c : Dev nD) : (V m c main_v1 : S1x64.Idx → EReal)
    = shapeCast S1x64 (argB m c) shapeCasts_S64_S1x64 := by
  dsimp only [V, hostOps0]
  after_results
  rfl

/-- The flat output at column b * 64 + c, with the column split back into (b, c). -/
theorem gflat_at (X : S4x256x768.Idx → EReal) (WT : S768x64.Idx → EReal) (B : S1x64.Idx → EReal)
    (n : Fin 4) (a b : Fin 256) (cc : Fin 64) :
    gflat X WT B n a ⟨b.val * 64 + cc.val, by omega⟩
      = (∑ k : Fin 768, X (ix3 n a k) * WT (ix2 k cc)) - (∑ k : Fin 768, X (ix3 n b k) * WT (ix2 k cc)) + B (ix2 0 cc) := by
  have e1 : ∀ h, (⟨(b.val * 64 + cc.val) % 64, h⟩ : Fin 64) = cc := fun h =>
    Fin.ext (by show (b.val * 64 + cc.val) % 64 = cc.val; omega)
  have e2 : ∀ h, (⟨(b.val * 64 + cc.val) / 64, h⟩ : Fin 256) = b := fun h =>
    Fin.ext (by show (b.val * 64 + cc.val) / 64 = b.val; omega)
  unfold gflat
  simp only [e1, e2]

/-- The result at (n, a, b, c), its flat last axis split: the reference's function of the launch arrays. Finite inputs
    make the difference of the two products the product of the difference. -/
theorem result_ix4 (c : Dev nD) (hx : ∀ i, ∃ r : ℝ, argX m c i = (r : EReal))
    (hw : ∀ i, ∃ r : ℝ, argW m c i = (r : EReal)) (n : Fin 4) (a b : Fin 256) (cc : Fin 64) :
    shapeCast S4x256x256x64 ((dats m 0 c).arrAt 4 cfg0.N) shapeCasts_S4x256x16384_S4x256x256x64 (ix4 n a b cc)
      = (∑ k : Fin 768, (argX m c (ix3 n a k) - argX m c (ix3 n b k)) * argW m c (ix2 cc k)) + argB m c (ix1 cc) := by
  rw [final_flat]
  refine (reshape_out_ix4 _ _ n a b cc).trans ?_
  refine (gflat_at _ _ _ n a b cc).trans ?_
  rw [V_arg0, V_v0, V_v1]
  have eT : ∀ k : Fin 768, transpose S768x64 [1, 0] (argW m c) transposes_S64x768_S768x64_1_0 (ix2 k cc)
      = argW m c (ix2 cc k) := fun k => transpose_at _ _ k cc
  have eB : shapeCast S1x64 (argB m c) shapeCasts_S64_S1x64 (ix2 0 cc) = argB m c (ix1 cc) := reshape_bias_at _ _ cc
  simp only [eT, eB]
  exact sub_dot (fun k => argX m c (ix3 n a k)) (fun k => argX m c (ix3 n b k)) (fun k => argW m c (ix2 cc k)) _
    (fun k => hx _) (fun k => hx _) (fun k => hw _)

/-- The same as an equation of arrays, at any index in its coordinates. -/
theorem result_eq (c : Dev nD) (hx : ∀ i, ∃ r : ℝ, argX m c i = (r : EReal))
    (hw : ∀ i, ∃ r : ℝ, argW m c i = (r : EReal)) :
    (fun i => shapeCast S4x256x256x64 ((dats m 0 c).arrAt 4 cfg0.N) shapeCasts_S4x256x16384_S4x256x256x64 i)
      = fun i : S4x256x256x64.Idx =>
        (∑ k : Fin 768, (argX m c (ix3 (i 0) (i 1) k) - argX m c (ix3 (i 0) (i 2) k)) * argW m c (ix2 (i 3) k))
          + argB m c (ix1 (i 3)) :=
  funext fun i =>
    (congrArg (shapeCast S4x256x256x64 ((dats m 0 c).arrAt 4 cfg0.N) shapeCasts_S4x256x16384_S4x256x256x64) (eq_ix4 i)).trans
      (result_ix4 m c hx hw (i 0) (i 1) (i 2) (i 3))

end Cert.KernelIdeal.Frame

end
-- ==== Proof.RefSpec.lean ====
/-
  The reference read at one element: at (n, a, b, c) it is the sum over the 768 feature coordinates of
  (x[n, a, k] - x[n, b, k]) * W[c, k], plus the bias at c. Each operation of the reference is read at an index from its
  operands at an index, outermost first; the composed index maps are the coordinate tuples on the right.
-/
import proofs.«135329_j43379169690302_2_alg».proof.Proof.Gen.ReferenceIdeal.Read

noncomputable section

namespace Cert.Bridge

open Cert.ReferenceIdeal Cert.ReferenceIdeal.Read Idealize.ShloMosaic Idealize.ShloMosaic.ValueIdx

/-- The reference at (n, a, b, c): the sum over the 768 feature coordinates of the difference of rows a and b of the
    input, times row c of the weight, plus the bias at c. -/
theorem ref_apply_ix4 (x0 : (⟨S4x256x768, .f32⟩ : BufTy).Contents (Elt Ideal))
    (x1 : (⟨S64x768, .f32⟩ : BufTy).Contents (Elt Ideal)) (x2 : (⟨S64, .f32⟩ : BufTy).Contents (Elt Ideal))
    (n : Fin 4) (a b : Fin 256) (c : Fin 64) :
    val_main_v8 (F := Ideal) x0 x1 x2 (ix4 n a b c)
      = (∑ k : Fin 768, (x0 (ix3 n a k) - x0 (ix3 n b k)) * x1 (ix2 c k)) + x2 (ix1 c) := by
  rw [val_main_v8_apply, val_main_v5_apply, val_main_v7_apply, val_main_v6_apply]
  refine congrArg₂ (· + ·) (Finset.sum_congr rfl fun k _ => ?_) ?_
  · rw [val_main_v4_apply, val_main_v2_apply, val_main_v3_apply, val_main_v0_apply, val_main_v1_apply]
    have e0 : idx_main_v0 (idx_main_v2 (lidx_main_v5 (ix4 n a b c) k)) = ix3 n a k := by
      funext d; match d with | ⟨0, _⟩ => rfl | ⟨1, _⟩ => rfl | ⟨2, _⟩ => rfl
    have e1 : idx_main_v1 (idx_main_v3 (lidx_main_v5 (ix4 n a b c) k)) = ix3 n b k := by
      funext d; match d with | ⟨0, _⟩ => rfl | ⟨1, _⟩ => rfl | ⟨2, _⟩ => rfl
    have er : ridx_main_v5 (ix4 n a b c) k = ix2 c k := by
      funext d; match d with | ⟨0, _⟩ => rfl | ⟨1, _⟩ => rfl
    rw [e0, e1, er]
    rfl
  · have e2 : idx_main_v6 (idx_main_v7 (ix4 n a b c)) = ix1 c := by
      funext d; match d with | ⟨0, _⟩ => rfl
    rw [e2]

/-- The same at any index, in its coordinates. -/
theorem ref_apply (x0 : (⟨S4x256x768, .f32⟩ : BufTy).Contents (Elt Ideal))
    (x1 : (⟨S64x768, .f32⟩ : BufTy).Contents (Elt Ideal)) (x2 : (⟨S64, .f32⟩ : BufTy).Contents (Elt Ideal))
    (i : S4x256x256x64.Idx) :
    val_main_v8 (F := Ideal) x0 x1 x2 i
      = (∑ k : Fin 768, (x0 (ix3 (i 0) (i 1) k) - x0 (ix3 (i 0) (i 2) k)) * x1 (ix2 (i 3) k)) + x2 (ix1 (i 3)) :=
  (congrArg (val_main_v8 (F := Ideal) x0 x1 x2) (eq_ix4 i)).trans (ref_apply_ix4 x0 x1 x2 (i 0) (i 1) (i 2) (i 3))

end Cert.Bridge

end
-- ==== Proof.Finite.lean ====
/-
  Finiteness from the precondition. The precondition is the conjunction, over the three inputs, of "every element has
  absolute value below +∞"; the pattern 0x7F800000 denotes +∞, and an extended real whose absolute value max x (-x) is
  below +∞ is neither -∞ nor +∞, so it is a real number.
-/
import proofs.«135329_j43379169690302_2_alg».proof.Defs
import proofs.«135329_j43379169690302_2_alg».proof.Proof.Gen.Pre_finite_inputs
import Idealize.ShloMosaic.Lib.ReduceAll
import Idealize.ShloMosaic.Lib.ValueIdx

noncomputable section

namespace Cert.Bridge

open Idealize.ShloMosaic Cert.Pre_finite_inputs

/-- The scalar shape has one index. -/
instance subsingleton_scalar_idx : Subsingleton S_.Idx := ⟨fun a b => funext fun d => d.elim0⟩

/-- The f32 pattern 0x7F800000 denotes +∞. -/
theorem ofBits_inf : Ideal.ofBits .f32 0x7F800000#32 = ⊤ := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- The printed comparison |x| < +∞ at one element. -/
theorem real_of_cmp {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) :=
  real_of_abs_lt_inf (x i) h

/-- The precondition gives a real witness for every element of every input. -/
theorem finite_of_pre [Cert.Pre_finite_inputs.Facts] (x0 : FVec Ideal S4x256x768 .f32) (x1 : FVec Ideal S64x768 .f32)
    (x2 : FVec Ideal S64 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [fn] at h0
  obtain ⟨h01, h2⟩ := IntOp.andi_eq_one.1 h0
  obtain ⟨h0', h1⟩ := IntOp.andi_eq_one.1 h01
  exact ⟨fun i => real_of_cmp x0 _ i (Host.reduce_andi_all _ _ _ _ _ h0' i),
    fun i => real_of_cmp x1 _ i (Host.reduce_andi_all _ _ _ _ _ h1 i),
    fun i => real_of_cmp x2 _ i (Host.reduce_andi_all _ _ _ _ _ h2 i)⟩

/-- The same statement reads at the programs' buffer-contents types, whose shapes are the same literals. -/
example [Cert.Pre_finite_inputs.Facts] (x0 : (⟨Cert.KernelIdeal.S4x256x768, .f32⟩ : BufTy).Contents (Elt Ideal))
    (x1 : (⟨Cert.KernelIdeal.S64x768, .f32⟩ : BufTy).Contents (Elt Ideal)) (x2 : (⟨Cert.KernelIdeal.S64, .f32⟩ : BufTy).Contents (Elt Ideal))
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) :=
  finite_of_pre x0 x1 x2 h

end Cert.Bridge

end
-- ==== Proof.lean ====
/-
  The relation predictor out[n, i, j, c] = sum over d of (x[n, i, d] - x[n, j, d]) * W[c, d] + b[c]: the tiled kernel
  against the plain reference, equal as extended reals for finite inputs.

  The kernel never forms the pairwise differences. Per batch n and per tile of 128 query rows i it multiplies the
  tile's rows and ALL 256 rows of x[n] by the transposed weight — two products into zero accumulators —, subtracts the
  second from the first along a broadcast, adds the bias, and writes the [128, 256, 64] tile flattened to
  [128, 16384]; a final reshape splits the last axis back. At the ideal instance both matrix products are plain sums
  over d, so entry (n, i, j, c) of the kernel's result is
      (sum_d x[n,i,d] * W[c,d]) - (sum_d x[n,j,d] * W[c,d]) + b[c],
  and the reference's is the sum of the differences' products plus b[c]. The two agree by distributing the product over
  the difference under the finite sum. On the extended reals that law fails at infinities, so it is here that the
  precondition — every input entry finite, hence a real number — is used.

  The same array x reaches the kernel through two of its input windows (the tile's rows; the batch's rows). Its frame
  — the program runs to the end, faults nowhere and leaves its arguments as they were — is therefore proved with x's
  ownership split between the two windows while the region runs (the modules BitsRun and IdealRun, one text at the two
  instances). The value of the result is read off that run: the flat output ends at the function its blocks restrict
  (IdealValue), and the reshape after the region reads it at an index. The reference's run and its reading at an index
  are generated modules this proof imports; `preserves` has no conjunct, the idealization being the program's own text.
-/
import proofs.«135329_j43379169690302_2_alg».proof.Defs
import proofs.«135329_j43379169690302_2_alg».proof.Proof.Gen.Kernel
import proofs.«135329_j43379169690302_2_alg».proof.Proof.Gen.KernelIdeal
import proofs.«135329_j43379169690302_2_alg».proof.Proof.Gen.ReferenceIdeal
import proofs.«135329_j43379169690302_2_alg».proof.Proof.Gen.ReferenceIdeal.Run
import proofs.«135329_j43379169690302_2_alg».proof.Proof.Gen.ReferenceIdeal.Read
import proofs.«135329_j43379169690302_2_alg».proof.Proof.Gen.Pre_finite_inputs
import proofs.«135329_j43379169690302_2_alg».proof.Proof.BitsRun
import proofs.«135329_j43379169690302_2_alg».proof.Proof.IdealRun
import proofs.«135329_j43379169690302_2_alg».proof.Proof.IdealValue
import proofs.«135329_j43379169690302_2_alg».proof.Proof.RefSpec
import proofs.«135329_j43379169690302_2_alg».proof.Proof.Finite
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Frame.frame m ρ

/-- So does the idealized kernel. -/
theorem frame_ki : Cert.frame_KernelIdeal := fun m ρ _ => Cert.KernelIdeal.Frame.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the three arguments both programs end with the same result: the kernel's, read off its
    run, and the reference's, read off its run one operation at a time, are one function of the arguments once every
    entry of x and W is a real number. -/
theorem algebraic : Cert.algebraic_KernelIdeal_ReferenceIdeal := by
  intro m ρ m' ρ' hpre hagree
  refine ⟨fun c => fun i => shapeCast Cert.KernelIdeal.S4x256x256x64 ((Cert.KernelIdeal.Frame.dats m 0 c).arrAt 4 Cert.KernelIdeal.cfg0.N)
      Cert.KernelIdeal.Facts₀.shapeCasts_S4x256x16384_S4x256x256x64 i, Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, -⟩ := Cert.Bridge.finite_of_pre _ _ _ (hpre c)
  rw [(hagree c).1, (hagree c).2.1, (hagree c).2.2, Cert.ReferenceIdeal.Read.val_main_v8_eq]
  refine Eq.trans ?_ (Cert.KernelIdeal.Frame.result_eq m c hx hw).symm
  funext i
  exact Cert.Bridge.ref_apply _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
